-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S10000x128 : Shape := ⟨2, ![10000, 128]⟩
abbrev S128 : Shape := ⟨1, ![128]⟩
abbrev S320000 : Shape := ⟨1, ![320000]⟩
abbrev S512x256 : Shape := ⟨2, ![512, 256]⟩
abbrev S256 : Shape := ⟨1, ![256]⟩
abbrev S256x128 : Shape := ⟨2, ![256, 128]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg6 : FVec F S256 .f32) (main_arg7 : FVec F S256x128 .f32) (main_arg8 : FVec F S128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S320000x128 .f32) (main_arg1 : FVec F S10000x128 .f32) (main_arg2 : FVec F S128 .f32) (main_arg3 : IVec S320000 32) (main_arg4 : IVec S320000 32) (main_arg5 : FVec F S512x256 .f32) (main_arg6 : FVec F S256 .f32) (main_arg7 : FVec F S256x128 .f32) (main_arg8 : FVec F S128 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_v13 main_v16
-- ==== Kernel.lean ====
abbrev S320000x128 : Shape := ⟨2, ![320000, 128]⟩
abbrev S10000x128 : Shape := ⟨2, ![10000, 128]⟩
abbrev S128 : Shape := ⟨1, ![128]⟩
abbrev S320000 : Shape := ⟨1, ![320000]⟩
abbrev S512x256 : Shape := ⟨2, ![512, 256]⟩
abbrev S256 : Shape := ⟨1, ![256]⟩
abbrev S256x128 : Shape := ⟨2, ![256, 128]⟩
abbrev S_ : Shape := ⟨0, ![]⟩
abbrev S320000x1 : Shape := ⟨2, ![320000, 1]⟩
abbrev S1x128 : Shape := ⟨2, ![1, 128]⟩
abbrev S1x256 : Shape := ⟨2, ![1, 256]⟩
abbrev S3200x128 : Shape := ⟨2, ![3200, 128]⟩
abbrev S3200x512 : Shape := ⟨2, ![3200, 512]⟩
abbrev S3200x256 : Shape := ⟨2, ![3200, 256]⟩

abbrev nBuf : Space → Nat
  | .hbm => 33
  | .vmem => 13
  | .smem => 0
  | _ => 0

abbrev bufTy : (tb : Table) → Fin (tcTables nBuf tb) → BufTy
  | .hbm, ⟨0, _⟩ => ⟨S320000x128, .f32⟩
  | .hbm, ⟨1, _⟩ => ⟨S10000x128, .f32⟩
  | .hbm, ⟨2, _⟩ => ⟨S128, .f32⟩
  | .hbm, ⟨3, _⟩ => ⟨S320000, .i32⟩
  | .hbm, ⟨4, _⟩ => ⟨S320000, .i32⟩
  | .hbm, ⟨5, _⟩ => ⟨S512x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S1x128, .f32⟩
  | .hbm, ⟨28, _⟩ => ⟨S1x256, .f32⟩
  | .hbm, ⟨29, _⟩ => ⟨S1x128, .f32⟩
  | .hbm, ⟨30, _⟩ => ⟨S512x256, .bf16⟩
  | .hbm, ⟨31, _⟩ => ⟨S256x128, .bf16⟩
  | .hbm, ⟨32, _⟩ => ⟨S320000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S1x128, .f32⟩
  | .local _ .vmem, ⟨7, _⟩ => ⟨S512x256, .bf16⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S3200x128, .f32⟩
  | .local _ .vmem, ⟨12, _⟩ => ⟨S3200x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  shapeCasts_S128_S1x128 : S128.ShapeCasts S1x128
  shapeCasts_S256_S1x256 : S256.ShapeCasts S1x256
  bitsLt_bf16_f32 : FTy.bits .bf16 < FTy.bits .f32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  concatenates_S3200x128_S3200x128_S3200x128_S3200x128_S3200x512_d1 : Shape.Concatenates [S3200x128, S3200x128, S3200x128, S3200x128] S3200x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S10000x128_S320000x1_S320000x128_1_0_n_n_0_1_1128_wf : GatherDims.WF S10000x128 S320000x1 S320000x128 [1] [0] [] [0] [] 1 ![1, 128]
  dot_S3200x512_S512x256_S3200x256_1_0_0_1_n_n_wf : DotDims.WF S3200x512 S512x256 S3200x256 [1] [0] [0] [1] [] []
  dot_S3200x256_S256x128_S3200x128_1_0_0_1_n_n_wf : DotDims.WF S3200x256 S256x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S320000x128.size a
  hwx0_0 : ∀ i : grid0.Coords, EltTy.bits .f32 = 32 ∨ (Rect.block (s := S320000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S320000x128.size a
  hwx0_1 : ∀ i : grid0.Coords, EltTy.bits .f32 = 32 ∨ (Rect.block (s := S320000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S320000x128.size a
  hwx0_2 : ∀ i : grid0.Coords, EltTy.bits .f32 = 32 ∨ (Rect.block (s := S320000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S320000x128.size a
  hwx0_8 : ∀ i : grid0.Coords, EltTy.bits .f32 = 32 ∨ (Rect.block (s := S320000x128) S3200x128.size (cc0_transform_8 i) (hinb0_8 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S3200x512_S512x256_S3200x256_1_0_0_1_n_n : DotDims S3200x512 S512x256 S3200x256 where
  lhsContracting := [1]
  rhsContracting := [0]
  lhsNonContracting := [0]
  rhsNonContracting := [1]
  lhsBatch := []
  rhsBatch := []
  wf := dot_S3200x512_S512x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf

abbrev win0_0 : Pipeline.Window sig grid0 :=
  Pipeline.Window.ofSpec (Memref.whole main_arg0) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S3200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S320000x128 : Shape := ⟨2, ![320000, 128]⟩
abbrev S10000x128 : Shape := ⟨2, ![10000, 128]⟩
abbrev S128 : Shape := ⟨1, ![128]⟩
abbrev S320000 : Shape := ⟨1, ![320000]⟩
abbrev S512x256 : Shape := ⟨2, ![512, 256]⟩
abbrev S256 : Shape := ⟨1, ![256]⟩
abbrev S256x128 : Shape := ⟨2, ![256, 128]⟩
abbrev S_ : Shape := ⟨0, ![]⟩
abbrev S320000x1 : Shape := ⟨2, ![320000, 1]⟩
abbrev S320000x512 : Shape := ⟨2, ![320000, 512]⟩
abbrev S320000x256 : Shape := ⟨2, ![320000, 256]⟩
abbrev S1x256 : Shape := ⟨2, ![1, 256]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S10000x128, .f32⟩
  | .hbm, ⟨2, _⟩ => ⟨S128, .f32⟩
  | .hbm, ⟨3, _⟩ => ⟨S320000, .i32⟩
  | .hbm, ⟨4, _⟩ => ⟨S320000, .i32⟩
  | .hbm, ⟨5, _⟩ => ⟨S512x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S320000x128, .f32⟩
  | .hbm, ⟨28, _⟩ => ⟨S320000x512, .f32⟩
  | .hbm, ⟨29, _⟩ => ⟨S320000x256, .f32⟩
  | .hbm, ⟨30, _⟩ => ⟨S1x256, .f32⟩
  | .hbm, ⟨31, _⟩ => ⟨S320000x256, .f32⟩
  | .hbm, ⟨32, _⟩ => ⟨S320000x256, .f32⟩
  | .hbm, ⟨33, _⟩ => ⟨S_, .f32⟩
  | .hbm, ⟨34, _⟩ => ⟨S320000x256, .f32⟩
  | .hbm, ⟨35, _⟩ => ⟨S320000x256, .f32⟩
  | .hbm, ⟨36, _⟩ => ⟨S320000x128, .f32⟩
  | .hbm, ⟨37, _⟩ => ⟨S1x128, .f32⟩
  | .hbm, ⟨38, _⟩ => ⟨S320000x128, .f32⟩
  | .hbm, ⟨39, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S128_S320000x128_1 : S128.BroadcastsInDim S320000x128 (![1] : Fin 1 → Fin S320000x128.rank)
  concatenates_S320000x128_S320000x128_S320000x128_S320000x128_S320000x512_d1 : Shape.Concatenates [S320000x128, S320000x128, S320000x128, S320000x128] S320000x512 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  gather_S10000x128_S320000x1_S320000x128_1_0_n_n_0_1_1128_wf : GatherDims.WF S10000x128 S320000x1 S320000x128 [1] [0] [] [0] [] 1 ![1, 128]
  dot_S320000x512_S512x256_S320000x256_1_0_0_1_n_n_wf : DotDims.WF S320000x512 S512x256 S320000x256 [1] [0] [0] [1] [] []
  dot_S320000x256_S256x128_S320000x128_1_0_0_1_n_n_wf : DotDims.WF S320000x256 S256x128 S320000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.EdgeMlpSpec.lean ====
/-
  One edge's update in a message-passing layer, as a function on the extended reals.

  An edge's input row is four pieces of 128 numbers laid end to end: the edge's own features, the features of
  the node it arrives at, the features of the node it leaves, and the global features, 512 numbers in all.
  The update is a perceptron with one hidden layer: an affine map from 512 to 256 numbers, the positive part
  of each, then an affine map from 256 to 128 numbers. Nothing here rounds: sums and products are those of
  the extended reals, in the one order written.

  This module names that function (`edgeMlpAt` for one edge, `edgeMlp` for the whole array of edges) and reads
  a join of four equally wide pieces along the columns at an index: column `l` of the joined row is column
  `l % 128` of piece `l / 128`.
-/
import Idealize.ShloMosaic.PureOps.Ideal
import Idealize.ShloMosaic.Lib.ValueIdx
import Idealize.ShloMosaic.Lib.Pipeline.Value
import proofs.«166320_j17386027614328_1_alg».proof.Proof.LibJoinAxis

noncomputable section

namespace Cert.EdgeMlp

open Idealize.ShloMosaic Idealize.ShloMosaic.ValueIdx

/-- Column `l` of the row made of the four pieces `e`, `r`, `s`, `g` laid end to end: piece `l / 128` at its
    column `l % 128`. -/
def featRow (e r s g : Fin 128 → EReal) (l : Fin 512) : EReal :=
  (![e, r, s, g] : Fin 4 → Fin 128 → EReal) ⟨l.val / 128, by have := l.isLt; omega⟩
    ⟨l.val % 128, Nat.mod_lt _ (by decide)⟩

/-- One edge's new feature `q`: with `x` the edge's joined row, hidden unit `k` is the positive part of
    `∑ l, x l · W1 l k + b1 k`, and the result is `∑ k, hidden k · W2 k q + b2 q`. The zero the positive part is
    taken against is kept as the f32 pattern of zero, the same word on both sides of the comparison. -/
def edgeMlpAt (e r s g : Fin 128 → EReal) (W1 : Fin 512 → Fin 256 → EReal) (b1 : Fin 256 → EReal)
    (W2 : Fin 256 → Fin 128 → EReal) (b2 : Fin 128 → EReal) (q : Fin 128) : EReal :=
  (∑ k : Fin 256,
      max ((∑ l : Fin 512, featRow e r s g l * W1 l k) + b1 k) (Ideal.ofBits .f32 0x00000000#32) * W2 k q)
    + b2 q

/-- The update depends on its eight arguments only through their values. -/
theorem edgeMlpAt_congr {e e' r r' s s' g g' : Fin 128 → EReal} {W1 W1' : Fin 512 → Fin 256 → EReal}
    {b1 b1' : Fin 256 → EReal} {W2 W2' : Fin 256 → Fin 128 → EReal} {b2 b2' : Fin 128 → EReal}
    (he : ∀ c, e c = e' c) (hr : ∀ c, r c = r' c) (hs : ∀ c, s c = s' c) (hg : ∀ c, g c = g' c)
    (hW1 : ∀ l k, W1 l k = W1' l k) (hb1 : ∀ k, b1 k = b1' k) (hW2 : ∀ k q, W2 k q = W2' k q)
    (hb2 : ∀ q, b2 q = b2' q) (q : Fin 128) :
    edgeMlpAt e r s g W1 b1 W2 b2 q = edgeMlpAt e' r' s' g' W1' b1' W2' b2' q := by
  obtain rfl : e = e' := funext he
  obtain rfl : r = r' := funext hr
  obtain rfl : s = s' := funext hs
  obtain rfl : g = g' := funext hg
  obtain rfl : W1 = W1' := funext fun l => funext fun k => hW1 l k
  obtain rfl : b1 = b1' := funext hb1
  obtain rfl : W2 = W2' := funext fun k => funext fun q => hW2 k q
  obtain rfl : b2 = b2' := funext hb2
  rfl

/-- The whole array of updated edges: row `p` is `edgeMlpAt` of row `p` of the edge features `E`, of the
    receivers' features `R` and of the senders' features `S` (each already laid out one row per edge), and of the
    global features `g`, with the two layers' weights and offsets. -/
def edgeMlp (E R S : (⟨2, ![320000, 128]⟩ : Shape).Idx → EReal) (g : (⟨1, ![128]⟩ : Shape).Idx → EReal)
    (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal) :
    (⟨2, ![320000, 128]⟩ : Shape).Idx → EReal := fun i =>
  edgeMlpAt (fun c => E (ix2 (n0 := 320000) (n1 := 128) (i 0) c)) (fun c => R (ix2 (n0 := 320000) (n1 := 128) (i 0) c))
    (fun c => S (ix2 (n0 := 320000) (n1 := 128) (i 0) c)) (fun c => g (ix1 c))
    (fun l k => W1 (ix2 l k)) (fun k => b1 (ix1 k)) (fun k q => W2 (ix2 k q)) (fun q => b2 (ix1 q)) (i 1)

/-- The array at row `p`, column `q`. -/
theorem edgeMlp_apply (E R S : (⟨2, ![320000, 128]⟩ : Shape).Idx → EReal) (g : (⟨1, ![128]⟩ : Shape).Idx → EReal)
    (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (p : Fin 320000) (q : Fin 128) :
    edgeMlp E R S g W1 b1 W2 b2 (ix2 p q)
      = edgeMlpAt (fun c => E (ix2 p c)) (fun c => R (ix2 p c)) (fun c => S (ix2 p c)) (fun c => g (ix1 c))
          (fun l k => W1 (ix2 l k)) (fun k => b1 (ix1 k)) (fun k q => W2 (ix2 k q)) (fun q => b2 (ix1 q)) q := rfl

/-- Row `p` of piece `n` among four arrays of 128 columns is piece `n` among their rows `p`. -/
theorem piece_row {A : Nat} (x0 x1 x2 x3 : (⟨2, ![A, 128]⟩ : Shape).Idx → EReal) (p : Fin A) (n : Fin 4) (c : Fin 128) :
    (![x0, x1, x2, x3] : Fin 4 → (⟨2, ![A, 128]⟩ : Shape).Idx → EReal) n (ix2 p c)
      = (![fun c => x0 (ix2 p c), fun c => x1 (ix2 p c), fun c => x2 (ix2 p c), fun c => x3 (ix2 p c)]
          : Fin 4 → Fin 128 → EReal) n c := by
  match n with
  | ⟨0, _⟩ => rfl
  | ⟨1, _⟩ => rfl
  | ⟨2, _⟩ => rfl
  | ⟨3, _⟩ => rfl

/-- Four arrays of `A` rows and 128 columns joined along the columns, read at row `p` and column `l`: the joined
    row of their rows `p`, at `l`. -/
theorem join4_apply {A : Nat} (x0 x1 x2 x3 : (⟨2, ![A, 128]⟩ : Shape).Idx → EReal)
    (h : Shape.Concatenates [(⟨2, ![A, 128]⟩ : Shape), ⟨2, ![A, 128]⟩, ⟨2, ![A, 128]⟩, ⟨2, ![A, 128]⟩] ⟨2, ![A, 512]⟩ 1)
    (p : Fin A) (l : Fin 512) :
    concatenate ⟨2, ![A, 512]⟩ 1
        [⟨⟨2, ![A, 128]⟩, x0⟩, ⟨⟨2, ![A, 128]⟩, x1⟩, ⟨⟨2, ![A, 128]⟩, x2⟩, ⟨⟨2, ![A, 128]⟩, x3⟩] h (ix2 p l)
      = featRow (fun c => x0 (ix2 p c)) (fun c => x1 (ix2 p c)) (fun c => x2 (ix2 p c)) (fun c => x3 (ix2 p c)) l := by
  have hl := l.isLt
  exact (Cert.LibJoinAxis.joinCols_apply (![x0, x1, x2, x3] : Fin 4 → (⟨2, ![A, 128]⟩ : Shape).Idx → EReal) h p l
    ⟨l.val / 128, by omega⟩ rfl ⟨l.val % 128, Nat.mod_lt _ (by decide)⟩ rfl).trans (piece_row x0 x1 x2 x3 p _ _)

end Cert.EdgeMlp

end
-- ==== Proof.KernelBody.lean ====
/-
  What the kernel's body stores, read at one entry of its block.

  The body holds a block of 3200 edges: their own features, their receivers' and senders' features (three
  blocks of 3200 × 128), the one row of global features, both weight matrices and both offset rows. It joins
  the three feature blocks and the repeated global row into 3200 × 512, multiplies by the first weights into a
  zero accumulator, adds the first offsets, takes the positive part, multiplies by the second weights into a
  zero accumulator and adds the second offsets. Read on the extended reals a matrix product into a zero
  accumulator is the plain sum over the contracted column, narrowing a number's format changes nothing, and a
  cast of a shape to itself is the identity; so entry (p, q) of the stored block is the one-edge update of
  row p of the feature blocks.
-/
import proofs.«166320_j17386027614328_1_alg».proof.Proof.Gen.KernelIdeal.Skeleton
import proofs.«166320_j17386027614328_1_alg».proof.Proof.EdgeMlpSpec
import Idealize.ShloMosaic.PureOps.Ideal.Laws
import Idealize.ShloMosaic.Lib.ValueLayout

noncomputable section

namespace Cert.KernelIdeal.Body

open Cert.KernelIdeal Cert.KernelIdeal.Gen Idealize.ShloMosaic Idealize.ShloMosaic.ValueIdx Cert.EdgeMlp

/-! ## The two matrix products as sums

For a product of an [A, K] by a [K, B] matrix the operand indices at output (p, k) and contracted position l
are (p, l) and (l, k). -/

theorem dot1_lhs0 (i : S3200x256.Idx) (q : dot_S3200x512_S512x256_S3200x256_1_0_0_1_n_n.contr.Idx) :
    (dot_S3200x512_S512x256_S3200x256_1_0_0_1_n_n.lhsIdx i q 0).val = (i 0).val := by
  unfold DotDims.lhsIdx
  rw [dif_neg (show ¬(0 : Fin S3200x512.rank) ∈ dot_S3200x512_S512x256_S3200x256_1_0_0_1_n_n.lhsBatch by decide),
    dif_pos (show (0 : Fin S3200x512.rank) ∈ dot_S3200x512_S512x256_S3200x256_1_0_0_1_n_n.lhsNonContracting by decide)]
  rfl
theorem dot1_lhs1 (i : S3200x256.Idx) (q : dot_S3200x512_S512x256_S3200x256_1_0_0_1_n_n.contr.Idx) :
    (dot_S3200x512_S512x256_S3200x256_1_0_0_1_n_n.lhsIdx i q 1).val = (q ⟨0, by decide⟩).val :=
  dot_S3200x512_S512x256_S3200x256_1_0_0_1_n_n.lhsIdx_val_of_single rfl i q
theorem dot1_rhs0 (i : S3200x256.Idx) (q : dot_S3200x512_S512x256_S3200x256_1_0_0_1_n_n.contr.Idx) :
    (dot_S3200x512_S512x256_S3200x256_1_0_0_1_n_n.rhsIdx i q 0).val = (q ⟨0, by decide⟩).val :=
  dot_S3200x512_S512x256_S3200x256_1_0_0_1_n_n.rhsIdx_val_of_single rfl i q
theorem dot1_rhs1 (i : S3200x256.Idx) (q : dot_S3200x512_S512x256_S3200x256_1_0_0_1_n_n.contr.Idx) :
    (dot_S3200x512_S512x256_S3200x256_1_0_0_1_n_n.rhsIdx i q 1).val = (i 1).val := by
  unfold DotDims.rhsIdx
  rw [dif_neg (show ¬(1 : Fin S512x256.rank) ∈ dot_S3200x512_S512x256_S3200x256_1_0_0_1_n_n.rhsBatch by decide),
    dif_pos (show (1 : Fin S512x256.rank) ∈ dot_S3200x512_S512x256_S3200x256_1_0_0_1_n_n.rhsNonContracting by decide)]
  rfl

/-- The first layer's product into a zero accumulator, at (p, k): the sum over the 512 joined columns. -/
theorem matmul1_apply (lhs : FVec Ideal S3200x512 .bf16) (rhs : FVec Ideal S512x256 .bf16) (p : Fin 3200) (k : Fin 256) :
    matmul dot_S3200x512_S512x256_S3200x256_1_0_0_1_n_n none lhs rhs (constant (F := Ideal) S3200x256 .f32 0x00000000#32) (ix2 p k)
      = ∑ l : Fin 512, lhs (ix2 p l) * rhs (ix2 l k) := by
  simp only [matmul]
  rw [Ideal.matmul_constant_zero_apply, ← Equiv.sum_comp (ValueIdx.contrEquiv1 dot_S3200x512_S512x256_S3200x256_1_0_0_1_n_n 512 rfl rfl).symm]
  refine Finset.sum_congr rfl fun l _ => ?_
  have hk := ValueIdx.contrEquiv1_symm_val dot_S3200x512_S512x256_S3200x256_1_0_0_1_n_n 512 rfl rfl l
  have el : dot_S3200x512_S512x256_S3200x256_1_0_0_1_n_n.lhsIdx (ix2 p k) ((ValueIdx.contrEquiv1 dot_S3200x512_S512x256_S3200x256_1_0_0_1_n_n 512 rfl rfl).symm l) = ix2 p l :=
    funext fun a => Fin.ext (by
      match a with
      | ⟨0, _⟩ => exact dot1_lhs0 _ _
      | ⟨1, _⟩ => exact (dot1_lhs1 _ _).trans hk)
  have er : dot_S3200x512_S512x256_S3200x256_1_0_0_1_n_n.rhsIdx (ix2 p k) ((ValueIdx.contrEquiv1 dot_S3200x512_S512x256_S3200x256_1_0_0_1_n_n 512 rfl rfl).symm l) = ix2 l k :=
    funext fun a => Fin.ext (by
      match a with
      | ⟨0, _⟩ => exact (dot1_rhs0 _ _).trans hk
      | ⟨1, _⟩ => exact dot1_rhs1 _ _)
  rw [el, er]

theorem dot2_lhs0 (i : S3200x128.Idx) (q : dot_S3200x256_S256x128_S3200x128_1_0_0_1_n_n.contr.Idx) :
    (dot_S3200x256_S256x128_S3200x128_1_0_0_1_n_n.lhsIdx i q 0).val = (i 0).val := by
  unfold DotDims.lhsIdx
  rw [dif_neg (show ¬(0 : Fin S3200x256.rank) ∈ dot_S3200x256_S256x128_S3200x128_1_0_0_1_n_n.lhsBatch by decide),
    dif_pos (show (0 : Fin S3200x256.rank) ∈ dot_S3200x256_S256x128_S3200x128_1_0_0_1_n_n.lhsNonContracting by decide)]
  rfl
theorem dot2_lhs1 (i : S3200x128.Idx) (q : dot_S3200x256_S256x128_S3200x128_1_0_0_1_n_n.contr.Idx) :
    (dot_S3200x256_S256x128_S3200x128_1_0_0_1_n_n.lhsIdx i q 1).val = (q ⟨0, by decide⟩).val :=
  dot_S3200x256_S256x128_S3200x128_1_0_0_1_n_n.lhsIdx_val_of_single rfl i q
theorem dot2_rhs0 (i : S3200x128.Idx) (q : dot_S3200x256_S256x128_S3200x128_1_0_0_1_n_n.contr.Idx) :
    (dot_S3200x256_S256x128_S3200x128_1_0_0_1_n_n.rhsIdx i q 0).val = (q ⟨0, by decide⟩).val :=
  dot_S3200x256_S256x128_S3200x128_1_0_0_1_n_n.rhsIdx_val_of_single rfl i q
theorem dot2_rhs1 (i : S3200x128.Idx) (q : dot_S3200x256_S256x128_S3200x128_1_0_0_1_n_n.contr.Idx) :
    (dot_S3200x256_S256x128_S3200x128_1_0_0_1_n_n.rhsIdx i q 1).val = (i 1).val := by
  unfold DotDims.rhsIdx
  rw [dif_neg (show ¬(1 : Fin S256x128.rank) ∈ dot_S3200x256_S256x128_S3200x128_1_0_0_1_n_n.rhsBatch by decide),
    dif_pos (show (1 : Fin S256x128.rank) ∈ dot_S3200x256_S256x128_S3200x128_1_0_0_1_n_n.rhsNonContracting by decide)]
  rfl

/-- The second layer's product into a zero accumulator, at (p, q): the sum over the 256 hidden units. -/
theorem matmul2_apply (lhs : FVec Ideal S3200x256 .bf16) (rhs : FVec Ideal S256x128 .bf16) (p : Fin 3200) (q : Fin 128) :
    matmul dot_S3200x256_S256x128_S3200x128_1_0_0_1_n_n none lhs rhs (constant (F := Ideal) S3200x128 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S3200x256_S256x128_S3200x128_1_0_0_1_n_n 256 rfl rfl).symm]
  refine Finset.sum_congr rfl fun k _ => ?_
  have hk := ValueIdx.contrEquiv1_symm_val dot_S3200x256_S256x128_S3200x128_1_0_0_1_n_n 256 rfl rfl k
  have el : dot_S3200x256_S256x128_S3200x128_1_0_0_1_n_n.lhsIdx (ix2 p q) ((ValueIdx.contrEquiv1 dot_S3200x256_S256x128_S3200x128_1_0_0_1_n_n 256 rfl rfl).symm k) = ix2 p k :=
    funext fun a => Fin.ext (by
      match a with
      | ⟨0, _⟩ => exact dot2_lhs0 _ _
      | ⟨1, _⟩ => exact (dot2_lhs1 _ _).trans hk)
  have er : dot_S3200x256_S256x128_S3200x128_1_0_0_1_n_n.rhsIdx (ix2 p q) ((ValueIdx.contrEquiv1 dot_S3200x256_S256x128_S3200x128_1_0_0_1_n_n 256 rfl rfl).symm k) = ix2 k q :=
    funext fun a => Fin.ext (by
      match a with
      | ⟨0, _⟩ => exact (dot2_rhs0 _ _).trans hk
      | ⟨1, _⟩ => exact dot2_rhs1 _ _)
  rw [el, er]

/-! ## The stored value at an entry -/

/-- Entry (p, q) of the block the body stores is the one-edge update of row p of the three feature blocks
    `x0`, `x1`, `x2` and the global row `x3`, with the weights `x4`, `x6` and the offset rows `x5`, `x7`. -/
theorem pay_apply (x0 x1 x2 : Vec Ideal S3200x128 .f32) (x3 : Vec Ideal S1x128 .f32) (x4 : Vec Ideal S512x256 .bf16)
    (x5 : Vec Ideal S1x256 .f32) (x6 : Vec Ideal S256x128 .bf16) (x7 : Vec Ideal S1x128 .f32)
    (p : Fin 3200) (q : Fin 128) :
    k0_pay1 (F := Ideal) x0 x1 x2 x3 x4 x5 x6 x7 (ix2 p q)
      = edgeMlpAt (fun c => x0 (ix2 p c)) (fun c => x1 (ix2 p c)) (fun c => x2 (ix2 p c))
          (fun c => x3 (ix2 (0 : Fin 1) c)) (fun l k => x4 (ix2 l k)) (fun k => x5 (ix2 (0 : Fin 1) k))
          (fun k q => x6 (ix2 k q)) (fun q => x7 (ix2 (0 : Fin 1) q)) q := by
  unfold k0_pay1 edgeMlpAt
  dsimp only
  simp only [shapeCast_self]
  rw [addf_apply, matmul2_apply, broadcastTo_1b_ab_apply]
  refine congrArg (· + x7 (ix2 (0 : Fin 1) q)) (Finset.sum_congr rfl fun k _ => ?_)
  refine congrArg (· * x6 (ix2 k q)) ?_
  rw [truncf_apply, maximumf_apply, addf_apply, matmul1_apply, broadcastTo_1b_ab_apply, broadcast_apply]
  refine congrArg (fun z => max (z + x5 (ix2 (0 : Fin 1) k)) (Ideal.ofBits .f32 0x00000000#32))
    (Finset.sum_congr rfl fun l _ => ?_)
  rw [truncf_apply, join4_apply]
  refine congrArg (· * x4 (ix2 l k)) ?_
  simp only [shapeCast_self]
  refine congrArg (fun g => featRow (fun c => x0 (ix2 p c)) (fun c => x1 (ix2 p c)) (fun c => x2 (ix2 p c)) g l)
    (funext fun c => ?_)
  exact broadcastTo_1b_ab_apply x3 broadcasts_S1x128_S3200x128 p c

end Cert.KernelIdeal.Body

end
-- ==== Proof.KernelEntry.lean ====
/-
  What the kernel's region finds in the arrays the host wrote before it.

  Before the one kernel launch the program gathers, for every edge, the feature row of its receiving node and
  of its sending node out of the node table (an index below zero is first moved up by the number of nodes);
  it gives the global features and the two offset vectors a leading axis of extent one; and it narrows the
  format of the two weight matrices, which on the extended reals changes nothing. Each of those arrays is
  stated here as that function of the program's arguments, and the reshaped vectors are read at an index.
-/
import proofs.«166320_j17386027614328_1_alg».proof.Proof.Gen.KernelIdeal.Frame
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The rows of the node table named by an index array: an index below zero is first moved up by the number of
    nodes, then the row is fetched. -/
def gathered (nodes : (⟨S10000x128, .f32⟩ : BufTy).Contents (Elt Ideal)) (idx : (⟨S320000, .i32⟩ : BufTy).Contents (Elt Ideal)) :
    (⟨S320000x128, .f32⟩ : BufTy).Contents (Elt Ideal) :=
  Host.gather gather_S10000x128_S320000x1_S320000x128_1_0_n_n_0_1_1128 nodes
    (broadcastInDim S320000x1 ![0] bcast_S320000_S320000x1_0
      (select (cmpi .slt idx (broadcastInDim S320000 ![] bcast_S_S320000 (constantI S_ 32 0#32)))
        (addi idx (broadcastInDim S320000 ![] bcast_S_S320000 (constantI S_ 32 10000#32))) idx))

/-- The receivers' rows: the node table gathered at the receiver indices. -/
theorem recv_rows (c : Dev nD) :
    (V m c main_v6 : S320000x128.Idx → EReal)
      = gathered (m ((c : Thread nD τ).loc main_arg1)) (m ((c : Thread nD τ).loc main_arg3)) := by
  dsimp only [Gen.V, Gen.hostOps0]; after_results; rfl

/-- The senders' rows: the node table gathered at the sender indices. -/
theorem send_rows (c : Dev nD) :
    (V m c main_v13 : S320000x128.Idx → EReal)
      = gathered (m ((c : Thread nD τ).loc main_arg1)) (m ((c : Thread nD τ).loc main_arg4)) := by
  dsimp only [Gen.V, Gen.hostOps0]; after_results; rfl

/-- The global features as one row. -/
theorem glob_row (c : Dev nD) :
    (V m c main_v14 : S1x128.Idx → EReal)
      = shapeCast S1x128 (m ((c : Thread nD τ).loc main_arg2)) shapeCasts_S128_S1x128 := by
  dsimp only [Gen.V, Gen.hostOps0]; after_results; rfl

/-- The first offsets as one row. -/
theorem off1_row (c : Dev nD) :
    (V m c main_v15 : S1x256.Idx → EReal)
      = shapeCast S1x256 (m ((c : Thread nD τ).loc main_arg6)) shapeCasts_S256_S1x256 := by
  dsimp only [Gen.V, Gen.hostOps0]; after_results; rfl

/-- The second offsets as one row. -/
theorem off2_row (c : Dev nD) :
    (V m c main_v16 : S1x128.Idx → EReal)
      = shapeCast S1x128 (m ((c : Thread nD τ).loc main_arg8)) shapeCasts_S128_S1x128 := by
  dsimp only [Gen.V, Gen.hostOps0]; after_results; rfl

/-- The first weights: narrowing the format is the identity on the extended reals. -/
theorem weights1 (c : Dev nD) :
    (V m c main_v17 : S512x256.Idx → EReal) = m ((c : Thread nD τ).loc main_arg5) := by
  dsimp only [Gen.V, Gen.hostOps0]; after_results; rfl

/-- The second weights likewise. -/
theorem weights2 (c : Dev nD) :
    (V m c main_v18 : S256x128.Idx → EReal) = m ((c : Thread nD τ).loc main_arg7) := by
  dsimp only [Gen.V, Gen.hostOps0]; after_results; rfl

/-- The row of global features at column `k` is global feature `k`. -/
theorem glob_row_apply (c : Dev nD) (k : Fin 128) :
    (V m c main_v14 : S1x128.Idx → EReal) (ix2 (0 : Fin 1) k) = m ((c : Thread nD τ).loc main_arg2) (ix1 k) := by
  rw [glob_row]; exact shapeCast_a_1a_apply _ _ 0 k

/-- The row of first offsets at column `k` is offset `k`. -/
theorem off1_row_apply (c : Dev nD) (k : Fin 256) :
    (V m c main_v15 : S1x256.Idx → EReal) (ix2 (0 : Fin 1) k) = m ((c : Thread nD τ).loc main_arg6) (ix1 k) := by
  rw [off1_row]; exact shapeCast_a_1a_apply _ _ 0 k

/-- The row of second offsets at column `k` is offset `k`. -/
theorem off2_row_apply (c : Dev nD) (k : Fin 128) :
    (V m c main_v16 : S1x128.Idx → EReal) (ix2 (0 : Fin 1) k) = m ((c : Thread nD τ).loc main_arg8) (ix1 k) := by
  rw [off2_row]; exact shapeCast_a_1a_apply _ _ 0 k

end Cert.KernelIdeal.Entry

end
-- ==== Proof.KernelBlocks.lean ====
/-
  Where the kernel's blocks sit in their arrays.

  The launch walks 100 grid points. At point t the three edge-feature windows and the result window hold rows
  3200 t … 3200 t + 3199 of their arrays, all 128 columns; the global row, the two weight matrices and the two
  offset rows are each one block, the whole array, at every point. So entry (p, q) of an edge block at point t
  is entry (3200 t + p, q) of its array, and an entry of a resident block is the same entry of its array.
-/
import proofs.«166320_j17386027614328_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed block maps, decided over the 100 grid points: the four edge windows are at block t of the
    rows and block 0 of the columns; the five resident windows at block 0 on both axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A grid point is below 100. -/
theorem point_lt (t : Fin cfg0.N) : t.val < 100 := lt_of_lt_of_eq t.isLt N_0

/-- The array row of row `p` of the block at point `t`. -/
def rowOf (t : Fin cfg0.N) (p : Fin 3200) : Fin 320000 :=
  ⟨t.val * 3200 + p.val, by have := point_lt t; have := p.isLt; omega⟩

theorem rowOf_val (t : Fin cfg0.N) (p : Fin 3200) : (rowOf t p).val = t.val * 3200 + p.val := rfl

/-! ## An entry of a block, in its array -/

theorem edge_emb0 (t : Fin cfg0.N) (p : Fin 3200) (q : Fin 128) :
    ((cfg0.win 0).blk t).view.emb (ix2 p q) = ix2 (rowOf t p) q := by
  have f := idx_facts t
  funext a; apply Fin.ext
  match a with
  | ⟨0, _⟩ =>
    show win0_0.index t (0 : Fin 2) * 3200 + 1 * p.val = t.val * 3200 + p.val
    have e : win0_0.index t (0 : Fin 2) = t.val := by simp only [f]
    rw [e]; omega
  | ⟨1, _⟩ =>
    show win0_0.index t (1 : Fin 2) * 128 + 1 * q.val = q.val
    have e : win0_0.index t (1 : Fin 2) = 0 := by simp only [f]
    rw [e]; omega

theorem edge_emb1 (t : Fin cfg0.N) (p : Fin 3200) (q : Fin 128) :
    ((cfg0.win 1).blk t).view.emb (ix2 p q) = ix2 (rowOf t p) q := by
  have f := idx_facts t
  funext a; apply Fin.ext
  match a with
  | ⟨0, _⟩ =>
    show win0_1.index t (0 : Fin 2) * 3200 + 1 * p.val = t.val * 3200 + p.val
    have e : win0_1.index t (0 : Fin 2) = t.val := by simp only [f]
    rw [e]; omega
  | ⟨1, _⟩ =>
    show win0_1.index t (1 : Fin 2) * 128 + 1 * q.val = q.val
    have e : win0_1.index t (1 : Fin 2) = 0 := by simp only [f]
    rw [e]; omega

theorem edge_emb2 (t : Fin cfg0.N) (p : Fin 3200) (q : Fin 128) :
    ((cfg0.win 2).blk t).view.emb (ix2 p q) = ix2 (rowOf t p) q := by
  have f := idx_facts t
  funext a; apply Fin.ext
  match a with
  | ⟨0, _⟩ =>
    show win0_2.index t (0 : Fin 2) * 3200 + 1 * p.val = t.val * 3200 + p.val
    have e : win0_2.index t (0 : Fin 2) = t.val := by simp only [f]
    rw [e]; omega
  | ⟨1, _⟩ =>
    show win0_2.index t (1 : Fin 2) * 128 + 1 * q.val = q.val
    have e : win0_2.index t (1 : Fin 2) = 0 := by simp only [f]
    rw [e]; omega

theorem edge_emb8 (t : Fin cfg0.N) (p : Fin 3200) (q : Fin 128) :
    ((cfg0.win 8).blk t).view.emb (ix2 p q) = ix2 (rowOf t p) q := by
  have f := idx_facts t
  funext a; apply Fin.ext
  match a with
  | ⟨0, _⟩ =>
    show win0_8.index t (0 : Fin 2) * 3200 + 1 * p.val = t.val * 3200 + p.val
    have e : win0_8.index t (0 : Fin 2) = t.val := by simp only [f]
    rw [e]; omega
  | ⟨1, _⟩ =>
    show win0_8.index t (1 : Fin 2) * 128 + 1 * q.val = q.val
    have e : win0_8.index t (1 : Fin 2) = 0 := by simp only [f]
    rw [e]; omega

theorem whole_emb3 (t : Fin cfg0.N) (a' : Fin 1) (b' : Fin 128) :
    ((cfg0.win 3).blk t).view.emb (ix2 a' b') = ix2 a' b' := by
  have f := idx_facts t
  funext a; apply Fin.ext
  match a with
  | ⟨0, _⟩ =>
    show win0_3.index t (0 : Fin 2) * 1 + 1 * a'.val = a'.val
    have e : win0_3.index t (0 : Fin 2) = 0 := by simp only [f]
    rw [e]; omega
  | ⟨1, _⟩ =>
    show win0_3.index t (1 : Fin 2) * 128 + 1 * b'.val = b'.val
    have e : win0_3.index t (1 : Fin 2) = 0 := by simp only [f]
    rw [e]; omega

theorem whole_emb4 (t : Fin cfg0.N) (a' : Fin 512) (b' : Fin 256) :
    ((cfg0.win 4).blk t).view.emb (ix2 a' b') = ix2 a' b' := by
  have f := idx_facts t
  funext a; apply Fin.ext
  match a with
  | ⟨0, _⟩ =>
    show win0_4.index t (0 : Fin 2) * 512 + 1 * a'.val = a'.val
    have e : win0_4.index t (0 : Fin 2) = 0 := by simp only [f]
    rw [e]; omega
  | ⟨1, _⟩ =>
    show win0_4.index t (1 : Fin 2) * 256 + 1 * b'.val = b'.val
    have e : win0_4.index t (1 : Fin 2) = 0 := by simp only [f]
    rw [e]; omega

theorem whole_emb5 (t : Fin cfg0.N) (a' : Fin 1) (b' : Fin 256) :
    ((cfg0.win 5).blk t).view.emb (ix2 a' b') = ix2 a' b' := by
  have f := idx_facts t
  funext a; apply Fin.ext
  match a with
  | ⟨0, _⟩ =>
    show win0_5.index t (0 : Fin 2) * 1 + 1 * a'.val = a'.val
    have e : win0_5.index t (0 : Fin 2) = 0 := by simp only [f]
    rw [e]; omega
  | ⟨1, _⟩ =>
    show win0_5.index t (1 : Fin 2) * 256 + 1 * b'.val = b'.val
    have e : win0_5.index t (1 : Fin 2) = 0 := by simp only [f]
    rw [e]; omega

theorem whole_emb6 (t : Fin cfg0.N) (a' : Fin 256) (b' : Fin 128) :
    ((cfg0.win 6).blk t).view.emb (ix2 a' b') = ix2 a' b' := by
  have f := idx_facts t
  funext a; apply Fin.ext
  match a with
  | ⟨0, _⟩ =>
    show win0_6.index t (0 : Fin 2) * 256 + 1 * a'.val = a'.val
    have e : win0_6.index t (0 : Fin 2) = 0 := by simp only [f]
    rw [e]; omega
  | ⟨1, _⟩ =>
    show win0_6.index t (1 : Fin 2) * 128 + 1 * b'.val = b'.val
    have e : win0_6.index t (1 : Fin 2) = 0 := by simp only [f]
    rw [e]; omega

theorem whole_emb7 (t : Fin cfg0.N) (a' : Fin 1) (b' : Fin 128) :
    ((cfg0.win 7).blk t).view.emb (ix2 a' b') = ix2 a' b' := by
  have f := idx_facts t
  funext a; apply Fin.ext
  match a with
  | ⟨0, _⟩ =>
    show win0_7.index t (0 : Fin 2) * 1 + 1 * a'.val = a'.val
    have e : win0_7.index t (0 : Fin 2) = 0 := by simp only [f]
    rw [e]; omega
  | ⟨1, _⟩ =>
    show win0_7.index t (1 : Fin 2) * 128 + 1 * b'.val = b'.val
    have e : win0_7.index t (1 : Fin 2) = 0 := by simp only [f]
    rw [e]; omega

/-! ## The input blocks read off the arrays as the region finds them -/

theorem read0 (c : Dev nD) (t : Fin cfg0.N) (p : Fin 3200) (q : Fin 128) :
    iblk m c 0 t (ix2 p q) = V m c main_arg0 (ix2 (rowOf t p) q) := by
  show V m c main_arg0 (((cfg0.win 0).blk t).view.emb (ix2 p q)) = _
  rw [edge_emb0]

theorem read1 (c : Dev nD) (t : Fin cfg0.N) (p : Fin 3200) (q : Fin 128) :
    iblk m c 1 t (ix2 p q) = V m c main_v6 (ix2 (rowOf t p) q) := by
  show V m c main_v6 (((cfg0.win 1).blk t).view.emb (ix2 p q)) = _
  rw [edge_emb1]

theorem read2 (c : Dev nD) (t : Fin cfg0.N) (p : Fin 3200) (q : Fin 128) :
    iblk m c 2 t (ix2 p q) = V m c main_v13 (ix2 (rowOf t p) q) := by
  show V m c main_v13 (((cfg0.win 2).blk t).view.emb (ix2 p q)) = _
  rw [edge_emb2]

theorem read3 (c : Dev nD) (t : Fin cfg0.N) (u : Fin 1) (k : Fin 128) :
    iblk m c 3 t (ix2 u k) = V m c main_v14 (ix2 u k) := by
  show V m c main_v14 (((cfg0.win 3).blk t).view.emb (ix2 u k)) = _
  rw [whole_emb3]

theorem read4 (c : Dev nD) (t : Fin cfg0.N) (l : Fin 512) (k : Fin 256) :
    iblk m c 4 t (ix2 l k) = V m c main_v17 (ix2 l k) := by
  show V m c main_v17 (((cfg0.win 4).blk t).view.emb (ix2 l k)) = _
  rw [whole_emb4]

theorem read5 (c : Dev nD) (t : Fin cfg0.N) (u : Fin 1) (k : Fin 256) :
    iblk m c 5 t (ix2 u k) = V m c main_v15 (ix2 u k) := by
  show V m c main_v15 (((cfg0.win 5).blk t).view.emb (ix2 u k)) = _
  rw [whole_emb5]

theorem read6 (c : Dev nD) (t : Fin cfg0.N) (k : Fin 256) (q : Fin 128) :
    iblk m c 6 t (ix2 k q) = V m c main_v18 (ix2 k q) := by
  show V m c main_v18 (((cfg0.win 6).blk t).view.emb (ix2 k q)) = _
  rw [whole_emb6]

theorem read7 (c : Dev nD) (t : Fin cfg0.N) (u : Fin 1) (q : Fin 128) :
    iblk m c 7 t (ix2 u q) = V m c main_v16 (ix2 u q) := by
  show V m c main_v16 (((cfg0.win 7).blk t).view.emb (ix2 u q)) = _
  rw [whole_emb7]

end Cert.KernelIdeal.Blocks

end
-- ==== Proof.KernelValue.lean ====
/-
  The kernel's result array as one function of the program's arguments.

  At every grid point the body stores, in the result window's block, the one-edge updates of the 3200 edges the
  point holds (the stored value read at an entry, with each input block read off its array where the block
  sits). The 100 result blocks are rows 3200 t … 3200 t + 3199, so every row of the result array lies in exactly
  the block of point (row / 3200), and the array after the run is the array of one-edge updates of the edge
  features, the gathered receiver and sender rows, the global features, and the two layers' weights and offsets.
-/
import proofs.«166320_j17386027614328_1_alg».proof.Proof.Gen.KernelIdeal.Value
import proofs.«166320_j17386027614328_1_alg».proof.Proof.KernelBody
import proofs.«166320_j17386027614328_1_alg».proof.Proof.KernelEntry
import proofs.«166320_j17386027614328_1_alg».proof.Proof.KernelBlocks

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp Cert.KernelIdeal.Entry Cert.KernelIdeal.Blocks Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The updated edges on core `c`, as a function of the program's arguments there. -/
def result (c : Dev nD) : Buf (Elt Ideal) ((c : Thread nD τ).loc main_v19) :=
  edgeMlp (m ((c : Thread nD τ).loc main_arg0))
    (gathered (m ((c : Thread nD τ).loc main_arg1)) (m ((c : Thread nD τ).loc main_arg3)))
    (gathered (m ((c : Thread nD τ).loc main_arg1)) (m ((c : Thread nD τ).loc main_arg4)))
    (m ((c : Thread nD τ).loc main_arg2)) (m ((c : Thread nD τ).loc main_arg5)) (m ((c : Thread nD τ).loc main_arg6))
    (m ((c : Thread nD τ).loc main_arg7)) (m ((c : Thread nD τ).loc main_arg8))

/-- What point `t` writes back is block `t` of `result`. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz]
  simp only [View.ld_unit_zero (S := S3200x128) hz, View.ld_unit_zero (S := S1x128) hz,
    View.ld_unit_zero (S := S512x256) hz, View.ld_unit_zero (S := S1x256) hz, View.ld_unit_zero (S := S256x128) hz]
  funext y
  obtain ⟨p, q, rfl⟩ : ∃ (p : Fin 3200) (q : Fin 128), y = ix2 p q := ⟨y 0, y 1, eq_ix2 y⟩
  show k0_pay1 (F := Ideal) (iblk m c 0 t) (iblk m c 1 t) (iblk m c 2 t) (iblk m c 3 t) (iblk m c 4 t) (iblk m c 5 t)
      (iblk m c 6 t) (iblk m c 7 t) (ix2 p q) = result m c (((cfg0.win 8).blk t).view.emb (ix2 p q))
  rw [edge_emb8]
  unfold result
  rw [edgeMlp_apply]
  refine (pay_apply _ _ _ _ _ _ _ _ p q).trans ?_
  exact edgeMlpAt_congr
    (fun c' => (read0 m c t p c').trans (congrFun (V_main_arg0 m c) _))
    (fun c' => (read1 m c t p c').trans (congrFun (recv_rows m c) _))
    (fun c' => (read2 m c t p c').trans (congrFun (send_rows m c) _))
    (fun c' => (read3 m c t 0 c').trans (glob_row_apply m c c'))
    (fun l k => (read4 m c t l k).trans (congrFun (weights1 m c) _))
    (fun k => (read5 m c t 0 k).trans (off1_row_apply m c k))
    (fun k q' => (read6 m c t k q').trans (congrFun (weights2 m c) _))
    (fun q' => (read7 m c t 0 q').trans (off2_row_apply m c q'))
    q

/-- An index of the result array is in point `t`'s block iff each coordinate is in the block's range on its axis. -/
theorem mem_blk (t : Fin cfg0.N) (i : S320000x128.Idx) :
    i ∈ ((cfg0.win 8).blk t).view.set ↔ ∀ a : Fin 2, win0_8.index t a * S3200x128.size a ≤ (i a).val
      ∧ (i a).val < win0_8.index t a * S3200x128.size a + S3200x128.size a := by
  show i ∈ ((View.whole main_v19).slice (win0_8.rect t)).set ↔ _
  rw [View.set_slice_whole, Rect.mem_set_unit]
  exact Iff.rfl

/-- Every index of the result array is in the block of the point its row, divided by 3200, names. -/
theorem cover (i : S320000x128.Idx) :
    ∃ t : Fin cfg0.N, (cfg0.win 8).flush t = true ∧ i ∈ ((cfg0.win 8).blk t).view.set := by
  have hi0 : (i 0).val < 320000 := (i 0).isLt
  have hi1 : (i 1).val < 128 := (i 1).isLt
  have hN : (i 0).val / 3200 < cfg0.N := lt_of_lt_of_eq (by omega : (i 0).val / 3200 < 100) N_0.symm
  have f := idx_facts ⟨(i 0).val / 3200, hN⟩
  have e0 : win0_8.index ⟨(i 0).val / 3200, hN⟩ (0 : Fin 2) = (i 0).val / 3200 := by simp only [f]
  have e1 : win0_8.index ⟨(i 0).val / 3200, hN⟩ (1 : Fin 2) = 0 := by simp only [f]
  refine ⟨⟨(i 0).val / 3200, hN⟩, flush0_8 _, ?_⟩
  rw [mem_blk]
  intro a
  match a with
  | ⟨0, _⟩ =>
    show win0_8.index ⟨(i 0).val / 3200, hN⟩ (0 : Fin 2) * 3200 ≤ (i 0).val
      ∧ (i 0).val < win0_8.index ⟨(i 0).val / 3200, hN⟩ (0 : Fin 2) * 3200 + 3200
    rw [e0]; omega
  | ⟨1, _⟩ =>
    show win0_8.index ⟨(i 0).val / 3200, hN⟩ (1 : Fin 2) * 128 ≤ (i 1).val
      ∧ (i 1).val < win0_8.index ⟨(i 0).val / 3200, hN⟩ (1 : Fin 2) * 128 + 128
    rw [e1]; omega

/-- The result array after the run. -/
theorem final (c : Dev nD) : (dats m 0 c).arrAt 8 cfg0.N = result m c :=
  (dats m 0 c).arrAt_eq_of_cover 8 (result m c) (fun t _ => flushed_eq m c t) cover

/-- Every weakly fair execution of the program terminates with the result array at `result` and the arguments
    unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.EdgeValue

end
-- ==== Proof.RefValue.lean ====
/-
  The reference's result, read at one entry.

  The reference gathers the receivers' and senders' rows, repeats the global features on every row, joins the
  four arrays along the columns into one of 512 columns, multiplies by the first weights, adds the first
  offsets, takes the positive part, multiplies by the second weights and adds the second offsets, all on whole
  arrays. Read at row p and column q, stage by stage, that is the one-edge update of row p: each product is the
  sum over the contracted column, each repeated vector is read at its one coordinate, and the joined array at
  column l is piece l / 128 at column l % 128.
-/
import proofs.«166320_j17386027614328_1_alg».proof.Proof.Gen.ReferenceIdeal.Read
import proofs.«166320_j17386027614328_1_alg».proof.Proof.EdgeMlpSpec

noncomputable section

namespace Cert.ReferenceIdeal.RefValue

open Cert.ReferenceIdeal Cert.ReferenceIdeal.Gen Cert.ReferenceIdeal.Read Idealize.ShloMosaic
open Idealize.ShloMosaic.ValueIdx Cert.EdgeMlp

/-! ## The stages' index maps at coordinates -/

theorem lidx21 (p : Fin 320000) (q : Fin 128) (k : Fin 256) : lidx_main_v21 (ix2 p q) k = ix2 p k :=
  funext fun a => Fin.ext (by match a with | ⟨0, _⟩ => rfl | ⟨1, _⟩ => rfl)
theorem ridx21 (p : Fin 320000) (q : Fin 128) (k : Fin 256) : ridx_main_v21 (ix2 p q) k = ix2 k q :=
  funext fun a => Fin.ext (by match a with | ⟨0, _⟩ => rfl | ⟨1, _⟩ => rfl)
theorem idx23 (p : Fin 320000) (q : Fin 128) : idx_main_v22 (idx_main_v23 (ix2 p q)) = ix1 q :=
  funext fun a => Fin.ext (by match a with | ⟨0, _⟩ => rfl)
theorem lidx16 (p : Fin 320000) (k : Fin 256) (l : Fin 512) : lidx_main_v16 (ix2 p k) l = ix2 p l :=
  funext fun a => Fin.ext (by match a with | ⟨0, _⟩ => rfl | ⟨1, _⟩ => rfl)
theorem ridx16 (p : Fin 320000) (k : Fin 256) (l : Fin 512) : ridx_main_v16 (ix2 p k) l = ix2 l k :=
  funext fun a => Fin.ext (by match a with | ⟨0, _⟩ => rfl | ⟨1, _⟩ => rfl)
theorem idx18 (p : Fin 320000) (k : Fin 256) : idx_main_v17 (idx_main_v18 (ix2 p k)) = ix1 k :=
  funext fun a => Fin.ext (by match a with | ⟨0, _⟩ => rfl)
theorem idx14 (p : Fin 320000) (c : Fin 128) : idx_main_v14 (ix2 p c) = ix1 c :=
  funext fun a => Fin.ext (by match a with | ⟨0, _⟩ => rfl)

/-! ## The last stage is the array of one-edge updates -/

/-- The reference's result is `edgeMlp` of the edge features, the two gathered arrays, the global features,
    and the two layers' weights and offsets. -/
theorem result_eq (x0 : (⟨S320000x128, .f32⟩ : BufTy).Contents (Elt Ideal)) (x1 : (⟨S10000x128, .f32⟩ : BufTy).Contents (Elt Ideal)) (x2 : (⟨S128, .f32⟩ : BufTy).Contents (Elt Ideal))
    (x3 x4 : (⟨S320000, .i32⟩ : BufTy).Contents (Elt Ideal)) (x5 : (⟨S512x256, .f32⟩ : BufTy).Contents (Elt Ideal)) (x6 : (⟨S256, .f32⟩ : BufTy).Contents (Elt Ideal))
    (x7 : (⟨S256x128, .f32⟩ : BufTy).Contents (Elt Ideal)) (x8 : (⟨S128, .f32⟩ : BufTy).Contents (Elt Ideal)) :
    val_main_v24 (F := Ideal) x0 x1 x2 x3 x4 x5 x6 x7 x8
      = edgeMlp x0 (val_main_v6 (F := Ideal) x1 x3) (val_main_v13 (F := Ideal) x1 x4) x2 x5 x6 x7 x8 := by
  funext i
  obtain ⟨p, q, rfl⟩ : ∃ (p : Fin 320000) (q : Fin 128), i = ix2 p q := ⟨i 0, i 1, eq_ix2 i⟩
  rw [edgeMlp_apply]
  unfold edgeMlpAt
  rw [val_main_v24_apply, val_main_v21_apply, val_main_v23_apply, val_main_v22_apply, idx23]
  refine congrArg (· + x8 (ix1 q)) (Finset.sum_congr rfl fun k _ => ?_)
  rw [lidx21, ridx21]
  refine congrArg (· * x7 (ix2 k q)) ?_
  rw [val_main_v20_apply, val_main_v19_apply, val_main_v16_apply, val_main_v18_apply, val_main_v17_apply, idx18,
    val_main_call0_v0_apply, val_main_call0_cst_apply]
  refine congrArg (fun z => max (z + x6 (ix1 k)) (Ideal.ofBits .f32 0x00000000#32))
    (Finset.sum_congr rfl fun l _ => ?_)
  rw [lidx16, ridx16]
  refine congrArg (· * x5 (ix2 l k)) ?_
  unfold val_main_v15
  rw [join4_apply]
  refine congrArg (fun g => featRow (fun c => x0 (ix2 p c)) (fun c => val_main_v6 (F := Ideal) x1 x3 (ix2 p c))
    (fun c => val_main_v13 (F := Ideal) x1 x4 (ix2 p c)) g l) (funext fun c => ?_)
  rw [val_main_v14_apply, idx14]

end Cert.ReferenceIdeal.RefValue

end
-- ==== Proof.lean ====
/-
  An edge update of a message-passing layer: kernel against reference, on the extended reals.

  Both programs take 320000 edges with 128 features each, a table of 10000 nodes with 128 features each, 128
  global features, each edge's receiving and sending node index, and the weights and offsets of a perceptron
  with one hidden layer (512 → 256 → 128). Both first fetch, for every edge, the feature rows of its two nodes
  (an index below zero moved up by the number of nodes first): the same operations on the same arguments, so
  the two gathered arrays are one term and are never opened. For one edge, the row of its own features, its
  receiver's, its sender's and the global features laid end to end is x (512 numbers), and its new features are

      ∑ k, max (∑ l, x l · W1 l k + b1 k) 0 · W2 k q + b2 q          (q < 128).

  The reference computes this on whole arrays. The kernel walks the edges 3200 at a time: each grid point holds
  one block of edge rows, joins its pieces, and runs the two matrix products into zero accumulators, narrowing
  number formats on the way in, which on the extended reals changes nothing. A matrix product into a zero
  accumulator and the host's contraction are the same sum over the contracted column, taken in the same order,
  so the two results agree entry by entry with no rearrangement of sums; nothing here needs the inputs finite.

  The parts: `EdgeMlpSpec` names the one-edge update and reads a four-piece join at an index; `KernelBody` reads
  the value the body stores at an entry of its block; `KernelEntry` states the arrays the host prepared before the
  launch; `KernelBlocks` places each block in its array; `KernelValue` assembles the result array from the 100
  blocks; `RefValue` reads the reference's last stage at an entry. Below, the three programs' runs (every
  execution terminates, nothing faults, the arguments end unchanged) and the equality of the two results.
-/
import proofs.«166320_j17386027614328_1_alg».proof.Defs
import proofs.«166320_j17386027614328_1_alg».proof.Proof.Gen.Kernel
import proofs.«166320_j17386027614328_1_alg».proof.Proof.Gen.Kernel.Frame
import proofs.«166320_j17386027614328_1_alg».proof.Proof.Gen.KernelIdeal
import proofs.«166320_j17386027614328_1_alg».proof.Proof.Gen.KernelIdeal.Frame
import proofs.«166320_j17386027614328_1_alg».proof.Proof.Gen.KernelIdeal.Value
import proofs.«166320_j17386027614328_1_alg».proof.Proof.Gen.ReferenceIdeal
import proofs.«166320_j17386027614328_1_alg».proof.Proof.Gen.ReferenceIdeal.Run
import proofs.«166320_j17386027614328_1_alg».proof.Proof.Gen.ReferenceIdeal.Read
import proofs.«166320_j17386027614328_1_alg».proof.Proof.Gen.Pre_finite_inputs
import proofs.«166320_j17386027614328_1_alg».proof.Proof.KernelValue
import proofs.«166320_j17386027614328_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- The receivers' rows: the two programs apply the same index shift and the same gather to the same arguments. -/
theorem recv_same (x1 : (⟨Cert.ReferenceIdeal.S10000x128, .f32⟩ : BufTy).Contents (Elt Ideal))
    (x3 : (⟨Cert.ReferenceIdeal.S320000, .i32⟩ : BufTy).Contents (Elt Ideal)) :
    Cert.ReferenceIdeal.Read.val_main_v6 (F := Ideal) x1 x3 = Cert.KernelIdeal.Entry.gathered x1 x3 := rfl

/-- The senders' rows likewise. -/
theorem send_same (x1 : (⟨Cert.ReferenceIdeal.S10000x128, .f32⟩ : BufTy).Contents (Elt Ideal))
    (x4 : (⟨Cert.ReferenceIdeal.S320000, .i32⟩ : BufTy).Contents (Elt Ideal)) :
    Cert.ReferenceIdeal.Read.val_main_v13 (F := Ideal) x1 x4 = Cert.KernelIdeal.Entry.gathered x1 x4 := rfl

/-- From memories that agree on the arguments both programs end with the array of one-edge updates of those
    arguments: the kernel block by block, the reference stage by stage. -/
theorem algebraic : Cert.algebraic_KernelIdeal_ReferenceIdeal := by
  intro m ρ m' ρ' _ hagree
  refine ⟨Cert.KernelIdeal.EdgeValue.result m, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v24_eq, Cert.ReferenceIdeal.RefValue.result_eq, recv_same, send_same,
    h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
